-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S200000x256 .f32) (main_arg1 : IVec S600000 32) (main_arg2 : IVec S600000 32) (main_arg3 : FVec F S200000x1 .f32) (main_arg4 : FVec F S256x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x1 .f32 := Host.absf main_arg3
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩
abbrev S600000x1 : Shape := ⟨2, ![600000, 1]⟩
abbrev S600000x256 : Shape := ⟨2, ![600000, 256]⟩
abbrev S2000x256 : Shape := ⟨2, ![2000, 256]⟩
abbrev S2000x1 : Shape := ⟨2, ![2000, 1]⟩

abbrev nBuf : Space → Nat
  | .hbm => 25
  | .vmem => 7
  | .smem => 0
  | _ => 0

abbrev bufTy : (tb : Table) → Fin (tcTables nBuf tb) → BufTy
  | .hbm, ⟨0, _⟩ => ⟨S200000x256, .f32⟩
  | .hbm, ⟨1, _⟩ => ⟨S600000, .i32⟩
  | .hbm, ⟨2, _⟩ => ⟨S600000, .i32⟩
  | .hbm, ⟨3, _⟩ => ⟨S200000x1, .f32⟩
  | .hbm, ⟨4, _⟩ => ⟨S256x256, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x256, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S200000x256, .f32⟩
  | .hbm, ⟨23, _⟩ => ⟨S256x256, .bf16⟩
  | .hbm, ⟨24, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .bf16⟩
  | .local _ .vmem, ⟨5, _⟩ => ⟨S2000x256, .f32⟩
  | .local _ .vmem, ⟨6, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .f32 = 32 ∨ (Rect.block (s := S200000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S200000x256.size a
  hwx0_3 : ∀ i : grid0.Coords, EltTy.bits .f32 = 32 ∨ (Rect.block (s := S200000x256) S2000x256.size (cc0_transform_3 i) (hinb0_3 i)).WholeWords (EltTy.packing .f32)

variable [Facts₀]

def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v13) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x256 : Shape := ⟨2, ![200000, 256]⟩
abbrev S600000 : Shape := ⟨1, ![600000]⟩
abbrev S200000x1 : Shape := ⟨2, ![200000, 1]⟩
abbrev S256x256 : Shape := ⟨2, ![256, 256]⟩
abbrev S_ : Shape := ⟨0, ![]⟩
abbrev S600000x1 : Shape := ⟨2, ![600000, 1]⟩
abbrev S600000x256 : Shape := ⟨2, ![600000, 256]⟩

abbrev nBuf : Space → Nat
  | .hbm => 26
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S600000, .i32⟩
  | .hbm, ⟨2, _⟩ => ⟨S600000, .i32⟩
  | .hbm, ⟨3, _⟩ => ⟨S200000x1, .f32⟩
  | .hbm, ⟨4, _⟩ => ⟨S256x256, .f32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x256, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S200000x256, .f32⟩
  | .hbm, ⟨23, _⟩ => ⟨S200000x256, .f32⟩
  | .hbm, ⟨24, _⟩ => ⟨S200000x256, .f32⟩
  | .hbm, ⟨25, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S200000x1_S200000x256_0_1 : S200000x1.BroadcastsInDim S200000x256 (![0, 1] : Fin 2 → Fin S200000x256.rank)
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  dot_S200000x256_S256x256_S200000x256_1_0_0_1_n_n_wf : DotDims.WF S200000x256 S256x256 S200000x256 [1] [0] [0] [1] [] []

variable [Facts₀]

def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf

class Facts : Prop extends Facts₀ where

variable [Facts]
-- ==== Proof.BodyProduct.lean ====
/-
  What the kernel body computes for one block of 2000 rows, read at an entry. The body loads the block's rows of the
  aggregate (2000 × 256), the rows' normalization factors (2000 × 1) and the whole weight matrix (256 × 256),
  scales each row by its factor (the factor broadcast along the 256 channels), and multiplies the scaled block into
  the weights with a zero accumulator. The two changes of float format on the way (the scaled block and, before the
  call, the weights) are the identity on the extended reals, so entry `(p, q)` of the stored block is

      Σ_k (a[p, k] · n[p, 0]) · w[k, q]        (p < 2000;  k, q < 256).
-/
import proofs.«136859_j13589276525053_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- A column of 2000 factors broadcast along 256 channels reads, at `(p, q)`, the column's entry `(p, 0)`. -/
theorem column_broadcast (n : FVec Ideal S2000x1 .f32) (p : Fin 2000) (q : Fin 256) :
    broadcastTo S2000x256 n broadcasts_S2000x1_S2000x256 (ix2 p q) = n (ix2 p (0 : Fin 1)) :=
  broadcastTo_apply n broadcasts_S2000x1_S2000x256 (ix2 p q) (ix2 p (0 : Fin 1)) (fun a => by
    match a with
    | ⟨0, _⟩ => show p.val = if (2000 : Nat) = 1 then 0 else p.val; rw [if_neg (by decide)]
    | ⟨1, _⟩ => show (0 : Nat) = if (1 : Nat) = 1 then 0 else q.val; rw [if_pos rfl])

/-- Row coordinate of the contraction's left operand: the output's row. -/
theorem lhs_row (i : S2000x256.Idx) (u : dot_S2000x256_S256x256_S2000x256_1_0_0_1_n_n.contr.Idx) :
    (dot_S2000x256_S256x256_S2000x256_1_0_0_1_n_n.lhsIdx i u 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- Channel coordinate of the left operand: the contracted index. -/
theorem lhs_channel (i : S2000x256.Idx) (u : dot_S2000x256_S256x256_S2000x256_1_0_0_1_n_n.contr.Idx) :
    (dot_S2000x256_S256x256_S2000x256_1_0_0_1_n_n.lhsIdx i u 1).val = (u ⟨0, by decide⟩).val :=
  dot_S2000x256_S256x256_S2000x256_1_0_0_1_n_n.lhsIdx_val_of_single rfl i u

/-- Row coordinate of the right operand: the contracted index. -/
theorem rhs_channel (i : S2000x256.Idx) (u : dot_S2000x256_S256x256_S2000x256_1_0_0_1_n_n.contr.Idx) :
    (dot_S2000x256_S256x256_S2000x256_1_0_0_1_n_n.rhsIdx i u 0).val = (u ⟨0, by decide⟩).val :=
  dot_S2000x256_S256x256_S2000x256_1_0_0_1_n_n.rhsIdx_val_of_single rfl i u

/-- Column coordinate of the right operand: the output's column. -/
theorem rhs_col (i : S2000x256.Idx) (u : dot_S2000x256_S256x256_S2000x256_1_0_0_1_n_n.contr.Idx) :
    (dot_S2000x256_S256x256_S2000x256_1_0_0_1_n_n.rhsIdx i u 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The contraction's left operand at output `(p, q)` and channel `k` is entry `(p, k)` of the scaled block. -/
theorem lhs_index (p : Fin 2000) (q : Fin 256) (k : Fin 256) :
    dot_S2000x256_S256x256_S2000x256_1_0_0_1_n_n.lhsIdx (ix2 p q)
      ((contrEquiv1 dot_S2000x256_S256x256_S2000x256_1_0_0_1_n_n 256 rfl rfl).symm k) = ix2 p k := by
  have hk := contrEquiv1_symm_val dot_S2000x256_S256x256_S2000x256_1_0_0_1_n_n 256 rfl rfl k
  refine funext fun a => Fin.ext ?_
  match a with
  | ⟨0, _⟩ => exact lhs_row _ _
  | ⟨1, _⟩ => exact (lhs_channel _ _).trans hk

/-- The right operand there is entry `(k, q)` of the weights. -/
theorem rhs_index (p : Fin 2000) (q : Fin 256) (k : Fin 256) :
    dot_S2000x256_S256x256_S2000x256_1_0_0_1_n_n.rhsIdx (ix2 p q)
      ((contrEquiv1 dot_S2000x256_S256x256_S2000x256_1_0_0_1_n_n 256 rfl rfl).symm k) = ix2 k q := by
  have hk := contrEquiv1_symm_val dot_S2000x256_S256x256_S2000x256_1_0_0_1_n_n 256 rfl rfl k
  refine funext fun a => Fin.ext ?_
  match a with
  | ⟨0, _⟩ => exact (rhs_channel _ _).trans hk
  | ⟨1, _⟩ => exact rhs_col _ _

/-- THE STORED BLOCK AT AN ENTRY: the scaled rows against the weights, summed over the 256 channels. -/
theorem payload_apply (a : Vec Ideal S2000x256 .f32) (n : Vec Ideal S2000x1 .f32) (w : Vec Ideal S256x256 .bf16)
    (p : Fin 2000) (q : Fin 256) :
    k0_pay1 (F := Ideal) a n w (ix2 p q) = ∑ k : Fin 256, (a (ix2 p k) * n (ix2 p (0 : Fin 1))) * w (ix2 k q) := by
  unfold k0_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  rw [lhs_index, rhs_index, shapeCast_self, shapeCast_self]
  show a (ix2 p k) * broadcastTo S2000x256 n broadcasts_S2000x1_S2000x256 (ix2 p k) * w (ix2 k q) = _
  rw [column_broadcast]

end Cert.KernelIdeal.Body

end
-- ==== Proof.ScaledProduct.lean ====
/-
  The function both programs compute from the aggregated node features. Each row of the aggregate is scaled by
  that row's normalization factor and then multiplied into the weight matrix:

      out[r, j] = Σ_k (agg[r, k] · nrm[r, 0]) · w[k, j]        (r < 200000;  k, j < 256),

  a sum of 256 products on the extended reals. The aggregate itself (the node features plus, for every edge,
  the source node's features added onto the target node's row) is an argument here: the two programs build it
  by the same operations, so nothing below depends on what it holds.
-/
import Idealize.ShloMosaic.PureOps.Ideal
import Idealize.ShloMosaic.Lib.ValueIdx

noncomputable section

namespace Cert.ScaledProduct

open Idealize.ShloMosaic Idealize.ShloMosaic.ValueIdx

/-- One row per node, one column per channel. -/
abbrev Nodes : Shape := ⟨2, ![200000, 256]⟩
/-- One normalization factor per node, kept as a column. -/
abbrev NodeCol : Shape := ⟨2, ![200000, 1]⟩
/-- The square weight matrix: input channel by output channel. -/
abbrev Weights : Shape := ⟨2, ![256, 256]⟩

/-- Entry `(r, j)` of the result: row `r` of the aggregate, scaled by the row's factor, against column `j` of the weights. -/
def entry (agg : Nodes.Idx → EReal) (nrm : NodeCol.Idx → EReal) (w : Weights.Idx → EReal) (r : Fin 200000) (j : Fin 256) : EReal :=
  ∑ k : Fin 256, (agg (ix2 r k) * nrm (ix2 r (0 : Fin 1))) * w (ix2 k j)

/-- The whole result array, index by index. -/
def scaledProduct (agg : Nodes.Idx → EReal) (nrm : NodeCol.Idx → EReal) (w : Weights.Idx → EReal) : Nodes.Idx → EReal :=
  fun i => entry agg nrm w (i 0) (i 1)

theorem scaledProduct_apply (agg : Nodes.Idx → EReal) (nrm : NodeCol.Idx → EReal) (w : Weights.Idx → EReal) (r : Fin 200000) (j : Fin 256) :
    scaledProduct agg nrm w (ix2 r j) = ∑ k : Fin 256, (agg (ix2 r k) * nrm (ix2 r (0 : Fin 1))) * w (ix2 k j) := rfl

end Cert.ScaledProduct

end
-- ==== Proof.KernelBlocks.lean ====
/-
  From blocks to the array. The call runs over 100 grid points; point `t` is handed rows `2000·t … 2000·t + 1999`
  of the aggregate and of the normalization column, and the whole weight matrix, and writes back rows
  `2000·t … 2000·t + 1999` of the result. By the body's arithmetic (`Body.payload_apply`) the block point `t` writes
  back is exactly block `t` of `scaledProduct` of the three arrays as the call finds them: entry `(p, q)` of the
  block is entry `(2000·t + p, q)` of the array, and the sum over the channels only reads row `2000·t + p` of the
  aggregate, that row's factor, and column `q` of the weights. The 100 blocks tile the 200000 rows (row `r` lies
  in block `r / 2000`), so after the run the result array is `scaledProduct` everywhere.
-/
import proofs.«136859_j13589276525053_2_alg».proof.Proof.Gen.KernelIdeal.Value
import proofs.«136859_j13589276525053_2_alg».proof.Proof.BodyProduct
import proofs.«136859_j13589276525053_2_alg».proof.Proof.ScaledProduct
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.ScaledProduct

variable (m : (ℓ : Loc nD τ sig) → Buf (Elt Ideal) ℓ) (ρ : Dev nD → PrngReg)

theorem hz : (![0, 0] : Fin 2 → Nat) = fun _ => 0 := funext fun a => by fin_cases a <;> rfl

/-- The four index maps, decided over the 100 points: the aggregate's, the column's and the result's blocks move
    down the rows with the point; the weights' block stays put. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 100 := by
  have h : grid0.N = 100 := N_0
  exact h ▸ t.isLt

/-- Entry `(p, k)` of the aggregate's block at point `t` is entry `(2000·t + p, k)` of the aggregate. -/
theorem aggregate_block (c : Dev nD) (t : Fin cfg0.N) (p : Fin 2000) (k : Fin 256) (hr : 2000 * t.val + p.val < 200000) :
    (iblk m c 0 t : Vec Ideal S2000x256 .f32) (ix2 p k)
      = (V m c main_v13 : Nodes.Idx → EReal) (ix2 (⟨2000 * t.val + p.val, hr⟩ : Fin 200000) k) := by
  obtain ⟨e0, e1, -⟩ := index_facts t
  unfold iblk
  rw [View.read_apply]
  show V m c main_v13 _ = V m c main_v13 _
  refine congrArg (V m c main_v13) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

/-- Entry `(p, 0)` of the column's block at point `t` is the factor of row `2000·t + p`. -/
theorem column_block (c : Dev nD) (t : Fin cfg0.N) (p : Fin 2000) (hr : 2000 * t.val + p.val < 200000) :
    (iblk m c 1 t : Vec Ideal S2000x1 .f32) (ix2 p (0 : Fin 1))
      = (V m c main_arg3 : NodeCol.Idx → EReal) (ix2 (⟨2000 * t.val + p.val, hr⟩ : Fin 200000) (0 : Fin 1)) := by
  obtain ⟨-, -, e2, e3, -⟩ := index_facts t
  unfold iblk
  rw [View.read_apply]
  show V m c main_arg3 _ = V m c main_arg3 _
  refine congrArg (V m c main_arg3) (funext fun a => Fin.ext ?_)
  match a with
  | ⟨0, _⟩ => show win0_1.index t (0 : Fin 2) * 2000 + 1 * p.val = 2000 * t.val + p.val; rw [e2]; omega
  | ⟨1, _⟩ => show win0_1.index t (1 : Fin 2) * 1 + 1 * 0 = 0; rw [e3]

/-- The weights' block is the whole matrix at every point. -/
theorem weights_block (c : Dev nD) (t : Fin cfg0.N) (k q : Fin 256) :
    (iblk m c 2 t : Vec Ideal S256x256 .bf16) (ix2 k q) = (V m c main_v14 : Weights.Idx → EReal) (ix2 k q) := by
  obtain ⟨-, -, -, -, e4, e5, -⟩ := index_facts t
  unfold iblk
  rw [View.read_apply]
  show V m c main_v14 _ = V m c main_v14 _
  refine congrArg (V m c main_v14) (funext fun a => Fin.ext ?_)
  match a with
  | ⟨0, _⟩ => show win0_2.index t (0 : Fin 2) * 256 + 1 * k.val = k.val; rw [e4]; omega
  | ⟨1, _⟩ => show win0_2.index t (1 : Fin 2) * 256 + 1 * q.val = q.val; rw [e5]; omega

/-- One stored entry against one entry of `scaledProduct`: if a block of rows, their factors and the weights are
    rows `2000·b …` of three arrays, the body's entry `(p, q)` is `scaledProduct`'s entry `(2000·b + p, q)`. -/
theorem stored_entry (A : Nodes.Idx → EReal) (Nr : NodeCol.Idx → EReal) (W : Weights.Idx → EReal)
    (a : Vec Ideal S2000x256 .f32) (n : Vec Ideal S2000x1 .f32) (w : Vec Ideal S256x256 .bf16)
    (b : Nat) (p : Fin 2000) (q : Fin 256) (hr : 2000 * b + p.val < 200000)
    (ha : ∀ k : Fin 256, a (ix2 p k) = A (ix2 (⟨2000 * b + p.val, hr⟩ : Fin 200000) k))
    (hn : n (ix2 p (0 : Fin 1)) = Nr (ix2 (⟨2000 * b + p.val, hr⟩ : Fin 200000) (0 : Fin 1)))
    (hw : ∀ k : Fin 256, w (ix2 k q) = W (ix2 k q)) :
    k0_pay1 (F := Ideal) a n w (ix2 p q) = scaledProduct A Nr W (ix2 (⟨2000 * b + p.val, hr⟩ : Fin 200000) q) := by
  rw [Body.payload_apply, scaledProduct_apply]
  refine Finset.sum_congr rfl fun k _ => ?_
  rw [ha k, hn, hw k]

/-- WHAT POINT `t` WRITES BACK is block `t` of `scaledProduct` of the arrays as the call finds them. -/
theorem flushed_eq (c : Dev nD) (t : Fin cfg0.N) :
    (dats m 0 c).flushed 3 t
      = ((cfg0.win 3).blk t).view.read (Elt Ideal) (scaledProduct (V m c main_v13) (V m c main_arg3) (V m c main_v14)) := by
  rw [flushed3]
  unfold out0_3
  rw [View.canon_unit_zero hz]
  simp only [View.ld_unit_zero (S := S2000x256) hz, View.ld_unit_zero (S := S2000x1) hz, View.ld_unit_zero (S := S256x256) hz]
  obtain ⟨-, -, -, -, -, -, e6, e7⟩ := index_facts t
  have ht := point_lt t
  refine funext fun (j : S2000x256.Idx) => ?_
  obtain ⟨p, q, rfl⟩ : ∃ (p : Fin 2000) (q : Fin 256), j = ix2 p q := ⟨j 0, j 1, eq_ix2 j⟩
  have hp : p.val < 2000 := p.isLt
  have hr : 2000 * t.val + p.val < 200000 := by omega
  have he : ((cfg0.win 3).blk t).view.emb (ix2 p q) = ix2 (⟨2000 * t.val + p.val, hr⟩ : Fin 200000) q :=
    funext fun a => Fin.ext (by
      match a with
      | ⟨0, _⟩ => show win0_3.index t (0 : Fin 2) * 2000 + 1 * p.val = 2000 * t.val + p.val; rw [e6]; omega
      | ⟨1, _⟩ => show win0_3.index t (1 : Fin 2) * 256 + 1 * q.val = q.val; rw [e7]; omega)
  show k0_pay1 (F := Ideal) (iblk m c 0 t) (iblk m c 1 t) (iblk m c 2 t) (ix2 p q)
    = scaledProduct (V m c main_v13) (V m c main_arg3) (V m c main_v14) (((cfg0.win 3).blk t).view.emb (ix2 p q))
  rw [he]
  exact stored_entry (V m c main_v13) (V m c main_arg3) (V m c main_v14) (iblk m c 0 t) (iblk m c 1 t) (iblk m c 2 t)
    t.val p q hr (fun k => aggregate_block m c t p k hr) (column_block m c t p hr) (fun k => weights_block m c t k q)

/-- An index of the result array is in point `t`'s block iff each coordinate is in the block's range on its axis. -/
theorem mem_block (t : Fin cfg0.N) (i : S200000x256.Idx) :
    i ∈ ((cfg0.win 3).blk t).view.set
      ↔ ∀ a : Fin 2, win0_3.index t a * S2000x256.size a ≤ (i a).val ∧ (i a).val < win0_3.index t a * S2000x256.size a + S2000x256.size a := by
  show i ∈ ((View.whole main_v15).slice (win0_3.rect t)).set ↔ _
  rw [View.set_slice_whole, Rect.mem_set_unit]
  exact Iff.rfl

/-- THE BLOCKS TILE THE ARRAY: row `r` is in the block of point `r / 2000`, and every point writes back. -/
theorem covered (i : S200000x256.Idx) : ∃ t : Fin cfg0.N, (cfg0.win 3).flush t = true ∧ i ∈ ((cfg0.win 3).blk t).view.set := by
  have hi0 : (i 0).val < 200000 := (i 0).isLt
  have hi1 : (i 1).val < 256 := (i 1).isLt
  have hN : grid0.N = 100 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 256 ≤ (i 1).val ∧ (i 1).val < win0_3.index t (1 : Fin 2) * 256 + 256
    rw [e7]; omega

/-- THE RESULT ARRAY after the run is `scaledProduct` of the aggregate, the column and the weights as the call finds them. -/
theorem final (c : Dev nD) :
    (dats m 0 c).arrAt 3 cfg0.N = scaledProduct (V m c main_v13) (V m c main_arg3) (V m c main_v14) :=
  (dats m 0 c).arrAt_eq_of_cover 3 (scaledProduct (V m c main_v13) (V m c main_arg3) (V m c main_v14))
    (fun t _ => flushed_eq m c t) (covered)

end Cert.KernelIdeal.Blocks

end
-- ==== Proof.HostPrefix.lean ====
/-
  The two arrays the host builds before the call.

  The aggregate: every edge's endpoint is first normalized (a negative endpoint `e` counts from the end, `e + 200000`),
  the source rows are gathered, and each gathered row is added onto its target's row of the node features. It is
  named here as ONE function `aggregate` of the node features and the two endpoint lists, and is never opened: the
  reference builds its aggregate by the same operations on the same arguments.

  The weights: the host changes their float format before the call, which on the extended reals is the identity,
  so the call finds the weights argument itself.
-/
import proofs.«136859_j13589276525053_2_alg».proof.Proof.Gen.KernelIdeal.Frame
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.HostPrefix

open Cert.KernelIdeal Cert.KernelIdeal.Gen

variable (m : (ℓ : Loc nD τ sig) → Buf (Elt Ideal) ℓ)

/-- An endpoint list normalized (a negative endpoint counts from the end) and laid out as a column of indices. -/
def endpoints (e : IVec S600000 32) : IVec S600000x1 32 :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 200000#32))) e)

/-- The node features with, for every edge, the source's row added onto the target's row. -/
def aggregate (x : FVec Ideal S200000x256 .f32) (src tgt : IVec S600000 32) : FVec Ideal S200000x256 .f32 :=
  Host.scatterAdd (F := Ideal) scatter_S200000x256_S600000x1_S600000x256_1_0_0_1 x (endpoints tgt)
    (Host.gather gather_S200000x256_S600000x1_S600000x256_1_0_n_n_0_1_1256 x (endpoints src))

set_option maxHeartbeats 2000000 in
/-- The call finds, in its first operand's array, the aggregate of the arguments. -/
theorem aggregate_window (c : Dev nD) :
    (V m c main_v13 : S200000x256.Idx → EReal)
      = aggregate (m ((c : Thread nD τ).loc main_arg0)) (m ((c : Thread nD τ).loc main_arg1)) (m ((c : Thread nD τ).loc main_arg2)) := by
  dsimp only [Gen.V, Gen.hostOps0]
  after_results
  rfl

set_option maxHeartbeats 2000000 in
/-- The call finds, in its third operand's array, the weights argument. -/
theorem weights_window (c : Dev nD) :
    (V m c main_v14 : S256x256.Idx → EReal) = (m ((c : Thread nD τ).loc main_arg4) : S256x256.Idx → EReal) := by
  dsimp only [Gen.V, Gen.hostOps0]
  after_results
  rfl

end Cert.KernelIdeal.HostPrefix

end
-- ==== Proof.KernelRun.lean ====
/-
  The kernel's run, read. Every weakly fair execution of the kernel's program ends with the result array holding
  `scaledProduct` of the aggregate of the arguments, the normalization argument and the weights argument, and with
  the five arguments as launched: the block-by-block statement (`Blocks.final`) with the three arrays the call reads
  named as functions of the arguments (`HostPrefix.aggregate_window`, the normalization argument untouched by the
  host, `HostPrefix.weights_window`).
-/
import proofs.«136859_j13589276525053_2_alg».proof.Proof.KernelBlocks
import proofs.«136859_j13589276525053_2_alg».proof.Proof.HostPrefix

noncomputable section

open Idealize.ShloMosaic Idealize.ShloMosaic.TcCoe Idealize.SL.Sem

namespace Cert.KernelIdeal.Run

open Cert.KernelIdeal Cert.KernelIdeal.Gen Cert.ScaledProduct

variable (m : (ℓ : Loc nD τ sig) → Buf (Elt Ideal) ℓ) (ρ : Dev nD → PrngReg)

/-- The result array as one function of the arguments. -/
abbrev result (c : Dev nD) : Nodes.Idx → EReal :=
  scaledProduct
    (HostPrefix.aggregate (m ((c : Thread nD τ).loc main_arg0)) (m ((c : Thread nD τ).loc main_arg1)) (m ((c : Thread nD τ).loc main_arg2)))
    (m ((c : Thread nD τ).loc main_arg3)) (m ((c : Thread nD τ).loc main_arg4))

/-- The result array after the run is `result`: the block-by-block statement with each of the three arrays the call
    reads rewritten as its function of the arguments. -/
theorem final (c : Dev nD) : (dats m 0 c).arrAt 3 cfg0.N = result m c := by
  rw [Blocks.final m c, HostPrefix.aggregate_window m c, V_main_arg3 m c, HostPrefix.weights_window m c]

/-- THE RUN: the result array at `result`, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Run

end
-- ==== Proof.ReferenceProduct.lean ====
/-
  The reference's result, read index by index, is `scaledProduct` of the aggregate, the normalization column
  and the weights. The reference scales the aggregate with the factor on the LEFT, `nrm[r, 0] · agg[r, k]`, and
  then contracts with the weights by a host `dot_general`, which on the extended reals is the plain sum over the
  contracted channel. So entry `(r, j)` is `Σ_k (nrm[r, 0] · agg[r, k]) · w[k, j]`, and the product of two extended
  reals commutes whatever their values (infinite ones included), which gives the summand of `scaledProduct`.
  The aggregate is carried as the stage that writes it and is never opened.
-/
import proofs.«136859_j13589276525053_2_alg».proof.Proof.Gen.ReferenceIdeal.Read
import proofs.«136859_j13589276525053_2_alg».proof.Proof.ScaledProduct

noncomputable section

namespace Cert.ReferenceIdeal.RefValue

open Cert.ReferenceIdeal Cert.ReferenceIdeal.Read Idealize.ShloMosaic Idealize.ShloMosaic.ValueIdx Cert.ScaledProduct

/-- The left operand of the contraction at output `(r, j)` and channel `k` is entry `(r, k)`. -/
theorem lhs_index (r : Fin 200000) (j k : Fin 256) : lidx_main_v16 (ix2 r j) k = ix2 r k :=
  funext fun a => Fin.ext (by match a with | ⟨0, _⟩ => rfl | ⟨1, _⟩ => rfl)

/-- The right operand there is entry `(k, j)` of the weights. -/
theorem rhs_index (r : Fin 200000) (j k : Fin 256) : ridx_main_v16 (ix2 r j) k = ix2 k j :=
  funext fun a => Fin.ext (by match a with | ⟨0, _⟩ => rfl | ⟨1, _⟩ => rfl)

/-- The normalization column broadcast along the channels reads, at `(r, k)`, the column's entry `(r, 0)`. -/
theorem col_index (r : Fin 200000) (k : Fin 256) : idx_main_v14 (ix2 r k) = ix2 r (0 : Fin 1) :=
  funext fun a => Fin.ext (by match a with | ⟨0, _⟩ => rfl | ⟨1, _⟩ => rfl)

/-- The reference's last stage is `scaledProduct` of the aggregate stage, the normalization column and the weights. -/
theorem result_eq (x0 : (⟨S200000x256, .f32⟩ : BufTy).Contents (Elt Ideal)) (x1 x2 : (⟨S600000, .i32⟩ : BufTy).Contents (Elt Ideal))
    (x3 : (⟨S200000x1, .f32⟩ : BufTy).Contents (Elt Ideal)) (x4 : (⟨S256x256, .f32⟩ : BufTy).Contents (Elt Ideal)) :
    val_main_v16 (F := Ideal) x0 x1 x2 x3 x4 = scaledProduct (val_main_v13 (F := Ideal) x0 x1 x2) x3 x4 := by
  funext i
  obtain ⟨r, j, rfl⟩ : ∃ (r : Fin 200000) (j : Fin 256), i = ix2 r j := ⟨i 0, i 1, eq_ix2 i⟩
  rw [val_main_v16_apply, scaledProduct_apply]
  refine Finset.sum_congr rfl fun k _ => ?_
  rw [lhs_index, rhs_index, val_main_v15_apply, val_main_v14_apply, col_index]
  show (x3 (ix2 r (0 : Fin 1)) * val_main_v13 (F := Ideal) x0 x1 x2 (ix2 r k)) * x4 (ix2 k j) = _
  rw [mul_comm (x3 (ix2 r (0 : Fin 1)))]

end Cert.ReferenceIdeal.RefValue

end
-- ==== Proof.lean ====
/-
  A graph-convolution layer: the node features `x` (200000 nodes, 256 channels) are aggregated along 600000 edges
  (for every edge the source node's row is added onto the target node's row of `x`), every node's row is scaled by
  that node's normalization factor, and the scaled rows are multiplied into a 256 × 256 weight matrix.

  The kernel's program builds the aggregate on the host and hands it to one call that walks the rows in 100 blocks
  of 2000: each block's rows are scaled (factor on the right of each product) and multiplied into the weights. The
  reference builds the same aggregate by the same host operations, scales it (factor on the left) and contracts it
  with the weights in one host product. On the extended reals both results are, entry by entry,

      out[r, j] = Σ_k (agg[r, k] · nrm[r, 0]) · w[k, j],

  the function `ScaledProduct.scaledProduct`: the changes of float format are the identity, the block-wise product
  into a zero accumulator and the host product are the same sum over the 256 channels, the 100 blocks tile the
  200000 rows, and the only algebra between the two spellings is the commutativity of one product of two extended
  reals per summand, which holds whatever their values. No finiteness of the inputs is used.

  The pieces: `ScaledProduct` (the function), `ReferenceProduct` (the reference's result is that function of its
  aggregate), `BodyProduct` (one stored entry of one block), `KernelBlocks` (from the blocks to the whole array),
  `HostPrefix` (the aggregate and the weights as the call finds them), `KernelRun` (the kernel's run, read). Here:
  the two aggregates are one term of the arguments, the three programs' frames, and the five claims together.
-/
import proofs.«136859_j13589276525053_2_alg».proof.Defs
import proofs.«136859_j13589276525053_2_alg».proof.Proof.Gen.Kernel
import proofs.«136859_j13589276525053_2_alg».proof.Proof.Gen.Kernel.Skeleton
import proofs.«136859_j13589276525053_2_alg».proof.Proof.Gen.Kernel.Launch
import proofs.«136859_j13589276525053_2_alg».proof.Proof.Gen.Kernel.Points
import proofs.«136859_j13589276525053_2_alg».proof.Proof.Gen.Kernel.Frame
import proofs.«136859_j13589276525053_2_alg».proof.Proof.Gen.KernelIdeal
import proofs.«136859_j13589276525053_2_alg».proof.Proof.Gen.KernelIdeal.Skeleton
import proofs.«136859_j13589276525053_2_alg».proof.Proof.Gen.KernelIdeal.Launch
import proofs.«136859_j13589276525053_2_alg».proof.Proof.Gen.KernelIdeal.Points
import proofs.«136859_j13589276525053_2_alg».proof.Proof.Gen.KernelIdeal.Frame
import proofs.«136859_j13589276525053_2_alg».proof.Proof.Gen.KernelIdeal.Value
import proofs.«136859_j13589276525053_2_alg».proof.Proof.Gen.ReferenceIdeal
import proofs.«136859_j13589276525053_2_alg».proof.Proof.Gen.ReferenceIdeal.Run
import proofs.«136859_j13589276525053_2_alg».proof.Proof.Gen.ReferenceIdeal.Read
import proofs.«136859_j13589276525053_2_alg».proof.Proof.Gen.Pre_finite_inputs
import proofs.«136859_j13589276525053_2_alg».proof.Proof.KernelRun
import proofs.«136859_j13589276525053_2_alg».proof.Proof.ReferenceProduct
import Idealize.ShloMosaic.Adequacy
import Idealize.ShloMosaic.Init

noncomputable section

namespace Cert.Proof

open Idealize.ShloMosaic Idealize.SL.Sem

/-- The two programs build their aggregates by the same operations: the kernel's, named as one function of the node
    features and the two endpoint lists, is the reference's aggregate stage of the same three arrays. -/
theorem aggregate_same (x : (⟨Cert.KernelIdeal.S200000x256, .f32⟩ : BufTy).Contents (Elt Ideal))
    (src tgt : (⟨Cert.KernelIdeal.S600000, .i32⟩ : BufTy).Contents (Elt Ideal)) :
    Cert.ReferenceIdeal.Read.val_main_v13 (F := Ideal) x src tgt = Cert.KernelIdeal.HostPrefix.aggregate x src tgt := rfl

/-- The kernel as printed runs to the end, nothing faulting, its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories agreeing on the five arguments, both programs end with the result array at `scaledProduct` of the
    aggregate of the arguments, the normalization factors and the weights. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v16_eq, Cert.ReferenceIdeal.RefValue.result_eq, aggregate_same]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
